-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x2048 : Shape := ⟨3, ![8, 64, 2048]⟩
abbrev S8x1x64x2048 : Shape := ⟨4, ![8, 1, 64, 2048]⟩
abbrev S1x64x2048 : Shape := ⟨3, ![1, 64, 2048]⟩
abbrev S1x1x64x2048 : Shape := ⟨4, ![1, 1, 64, 2048]⟩
abbrev S64x2048 : Shape := ⟨2, ![64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x64x2048, .i32⟩
  | .hbm, ⟨1, _⟩ => ⟨S8x1x64x2048, .f32⟩
  | .local _ .vmem, ⟨0, _⟩ => ⟨S1x64x2048, .i32⟩
  | .local _ .vmem, ⟨1, _⟩ => ⟨S1x64x2048, .i32⟩
  | .local _ .vmem, ⟨2, _⟩ => ⟨S1x1x64x2048, .f32⟩
  | .local _ .vmem, ⟨3, _⟩ => ⟨S1x1x64x2048, .f32⟩
  | _, _ => ⟨S8x64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  iota_S64x2048_d0_w32 : S64x2048.Iotas .tc 32 [0]
  iota_S64x2048_d1_w32 : S64x2048.Iotas .tc 32 [1]
  natLt_1_32 : 1 < 32
  rotates_S64x2048_d0 : S64x2048.Rotates 0 none
  rotates_S64x2048_d1 : S64x2048.Rotates 1 none
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  shapeCasts_S64x2048_S1x1x64x2048 : S64x2048.ShapeCasts S1x1x64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S8x64x2048.size a
  hwx0_0 : ∀ i : grid0.Coords, EltTy.bits .i32 = 32 ∨ (Rect.block (s := S8x64x2048) S1x64x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S8x1x64x2048.size a
  hwx0_1 : ∀ i : grid0.Coords, EltTy.bits .f32 = 32 ∨ (Rect.block (s := S8x1x64x2048) S1x1x64x2048.size (cc0_transform_1 i) (hinb0_1 i)).WholeWords (EltTy.packing .f32)

variable [Facts₀]

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x2048 : Shape := ⟨3, ![8, 64, 2048]⟩
abbrev S8x1x64x2048 : Shape := ⟨4, ![8, 1, 64, 2048]⟩
abbrev S1x20x1x1 : Shape := ⟨4, ![1, 20, 1, 1]⟩
abbrev S8x20x64x2048 : Shape := ⟨4, ![8, 20, 64, 2048]⟩
abbrev S_ : Shape := ⟨0, ![]⟩
abbrev S8x20x66x2050 : Shape := ⟨4, ![8, 20, 66, 2050]⟩

abbrev nBuf : Space → Nat
  | .hbm => 65
  | .vmem => 0
  | .smem => 0
  | _ => 0

abbrev bufTy : (tb : Table) → Fin (tcTables nBuf tb) → BufTy
  | .hbm, ⟨0, _⟩ => ⟨S8x64x2048, .i32⟩
  | .hbm, ⟨1, _⟩ => ⟨S8x1x64x2048, .i32⟩
  | .hbm, ⟨2, _⟩ => ⟨S1x20x1x1, .i32⟩
  | .hbm, ⟨3, _⟩ => ⟨S8x20x64x2048, .i32⟩
  | .hbm, ⟨4, _⟩ => ⟨S8x20x64x2048, .i32⟩
  | .hbm, ⟨5, _⟩ => ⟨S8x20x64x2048, .i1⟩
  | .hbm, ⟨6, _⟩ => ⟨S8x20x64x2048, .f32⟩
  | .hbm, ⟨7, _⟩ => ⟨S_, .i32⟩
  | .hbm, ⟨8, _⟩ => ⟨S_, .f32⟩
  | .hbm, ⟨9, _⟩ => ⟨S8x20x66x2050, .f32⟩
  | .hbm, ⟨10, _⟩ => ⟨S8x20x64x2048, .f32⟩
  | .hbm, ⟨11, _⟩ => ⟨S8x20x64x2048, .f32⟩
  | .hbm, ⟨12, _⟩ => ⟨S8x20x64x2048, .f32⟩
  | .hbm, ⟨13, _⟩ => ⟨S8x20x64x2048, .f32⟩
  | .hbm, ⟨14, _⟩ => ⟨S8x20x64x2048, .f32⟩
  | .hbm, ⟨15, _⟩ => ⟨S8x20x64x2048, .f32⟩
  | .hbm, ⟨16, _⟩ => ⟨S8x20x64x2048, .f32⟩
  | .hbm, ⟨17, _⟩ => ⟨S8x20x64x2048, .f32⟩
  | .hbm, ⟨18, _⟩ => ⟨S8x20x64x2048, .f32⟩
  | .hbm, ⟨19, _⟩ => ⟨S_, .f32⟩
  | .hbm, ⟨20, _⟩ => ⟨S8x20x64x2048, .f32⟩
  | .hbm, ⟨21, _⟩ => ⟨S8x20x64x2048, .i1⟩
  | .hbm, ⟨22, _⟩ => ⟨S8x20x64x2048, .f32⟩
  | .hbm, ⟨23, _⟩ => ⟨S_, .i32⟩
  | .hbm, ⟨24, _⟩ => ⟨S_, .f32⟩
  | .hbm, ⟨25, _⟩ => ⟨S8x20x66x2050, .f32⟩
  | .hbm, ⟨26, _⟩ => ⟨S8x20x64x2048, .f32⟩
  | .hbm, ⟨27, _⟩ => ⟨S8x20x64x2048, .f32⟩
  | .hbm, ⟨28, _⟩ => ⟨S8x20x64x2048, .f32⟩
  | .hbm, ⟨29, _⟩ => ⟨S8x20x64x2048, .f32⟩
  | .hbm, ⟨30, _⟩ => ⟨S8x20x64x2048, .f32⟩
  | .hbm, ⟨31, _⟩ => ⟨S8x20x64x2048, .f32⟩
  | .hbm, ⟨32, _⟩ => ⟨S8x20x64x2048, .f32⟩
  | .hbm, ⟨33, _⟩ => ⟨S8x20x64x2048, .f32⟩
  | .hbm, ⟨34, _⟩ => ⟨S8x20x64x2048, .f32⟩
  | .hbm, ⟨35, _⟩ => ⟨S_, .f32⟩
  | .hbm, ⟨36, _⟩ => ⟨S8x20x64x2048, .f32⟩
  | .hbm, ⟨37, _⟩ => ⟨S8x20x64x2048, .i1⟩
  | .hbm, ⟨38, _⟩ => ⟨S8x20x64x2048, .f32⟩
  | .hbm, ⟨39, _⟩ => ⟨S_, .i32⟩
  | .hbm, ⟨40, _⟩ => ⟨S_, .f32⟩
  | .hbm, ⟨41, _⟩ => ⟨S8x20x66x2050, .f32⟩
  | .hbm, ⟨42, _⟩ => ⟨S8x20x64x2048, .f32⟩
  | .hbm, ⟨43, _⟩ => ⟨S8x20x64x2048, .f32⟩
  | .hbm, ⟨44, _⟩ => ⟨S8x20x64x2048, .f32⟩
  | .hbm, ⟨45, _⟩ => ⟨S8x20x64x2048, .f32⟩
  | .hbm, ⟨46, _⟩ => ⟨S8x20x64x2048, .f32⟩
  | .hbm, ⟨47, _⟩ => ⟨S8x20x64x2048, .f32⟩
  | .hbm, ⟨48, _⟩ => ⟨S8x20x64x2048, .f32⟩
  | .hbm, ⟨49, _⟩ => ⟨S8x20x64x2048, .f32⟩
  | .hbm, ⟨50, _⟩ => ⟨S8x20x64x2048, .f32⟩
  | .hbm, ⟨51, _⟩ => ⟨S_, .f32⟩
  | .hbm, ⟨52, _⟩ => ⟨S8x20x64x2048, .f32⟩
  | .hbm, ⟨53, _⟩ => ⟨S8x20x64x2048, .i1⟩
  | .hbm, ⟨54, _⟩ => ⟨S8x20x64x2048, .f32⟩
  | .hbm, ⟨55, _⟩ => ⟨S_, .f32⟩
  | .hbm, ⟨56, _⟩ => ⟨S8x64x2048, .f32⟩
  | .hbm, ⟨57, _⟩ => ⟨S8x1x64x2048, .f32⟩
  | .hbm, ⟨58, _⟩ => ⟨S_, .f32⟩
  | .hbm, ⟨59, _⟩ => ⟨S8x1x64x2048, .f32⟩
  | .hbm, ⟨60, _⟩ => ⟨S8x1x64x2048, .i1⟩
  | .hbm, ⟨61, _⟩ => ⟨S8x1x64x2048, .f32⟩
  | .hbm, ⟨62, _⟩ => ⟨S_, .f32⟩
  | .hbm, ⟨63, _⟩ => ⟨S8x1x64x2048, .f32⟩
  | .hbm, ⟨64, _⟩ => ⟨S8x1x64x2048, .f32⟩
  | _, _ => ⟨S8x64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_call3_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S8x64x2048_S8x1x64x2048_0_2_3 : S8x64x2048.BroadcastsInDim S8x1x64x2048 (![0, 2, 3] : Fin 3 → Fin S8x1x64x2048.rank)
  bcast_S8x1x64x2048_S8x20x64x2048_0_1_2_3 : S8x1x64x2048.BroadcastsInDim S8x20x64x2048 (![0, 1, 2, 3] : Fin 4 → Fin S8x20x64x2048.rank)
  bcast_S1x20x1x1_S8x20x64x2048_0_1_2_3 : S1x20x1x1.BroadcastsInDim S8x20x64x2048 (![0, 1, 2, 3] : Fin 4 → Fin S8x20x64x2048.rank)
  pads_S8x20x64x2048_S8x20x66x2050_000_000_110_110 : S8x20x64x2048.Pads (![0, 0, 1, 1] : Fin 4 → Nat) ![0, 0, 1, 1] ![0, 0, 0, 0] S8x20x66x2050
  h_S_ : 0 < S_.numel
  slices_S8x20x66x2050_S8x20x64x2048_0_0_1_1 : S8x20x66x2050.Slices ![0, 0, 1, 1] S8x20x64x2048
  slices_S8x20x66x2050_S8x20x64x2048_0_0_0_1 : S8x20x66x2050.Slices ![0, 0, 0, 1] S8x20x64x2048
  slices_S8x20x66x2050_S8x20x64x2048_0_0_2_1 : S8x20x66x2050.Slices ![0, 0, 2, 1] S8x20x64x2048
  slices_S8x20x66x2050_S8x20x64x2048_0_0_1_0 : S8x20x66x2050.Slices ![0, 0, 1, 0] S8x20x64x2048
  slices_S8x20x66x2050_S8x20x64x2048_0_0_1_2 : S8x20x66x2050.Slices ![0, 0, 1, 2] S8x20x64x2048
  bcast_S_S8x20x64x2048 : S_.BroadcastsInDim S8x20x64x2048 (![] : Fin 0 → Fin S8x20x64x2048.rank)
  reducesTo_S8x20x64x2048_S8x64x2048_d1 : S8x20x64x2048.ReducesTo [1] S8x64x2048
  bcast_S_S8x1x64x2048 : S_.BroadcastsInDim S8x1x64x2048 (![] : Fin 0 → Fin S8x1x64x2048.rank)

variable [Facts₀]

class Facts : Prop extends Facts₀ where

variable [Facts]
-- ==== Proof.KernelBody.lean ====
/-
  The kernel's body, regrouped. The printed body is one straight line of 1,896 operations: for each of the twenty
  classes it builds the class's indicator plane, erodes it three times with the plus-shaped (4-connected)
  structuring element, and adds the result into an accumulator; at the end it marks the pixels whose accumulated
  count is not one. Here the same operations are grouped as the mathematics reads them — one neighbour shift, one
  erosion, one class body, the accumulation — so that the later modules reason about ONE erosion instead of sixty.
  Nothing is computed: the regrouped term is the printed one, operation for operation.
-/
import proofs.«153171_j17489106829544_1_alg».proof.Proof.Gen.KernelIdeal.Frame

noncomputable section

namespace Cert.KernelIdeal.Body

open Cert.KernelIdeal Cert.KernelIdeal.Gen Idealize.ShloMosaic Idealize.ShloMosaic.TcCoe

variable {F : FTy → Type} [FloatOps F]

/-- The all-zero plane. -/
def zeroV : FVec F S64x2048 .f32 := broadcast S64x2048 (Scalar.ofBits .f32 0x00000000#32)

/-- A one-bit plane as a float plane of zeros and ones. -/
def indV (b : IVec S64x2048 1) : FVec F S64x2048 .f32 := sitofp .f32 (extui 32 b natLt_1_32)

/-- The neighbour above: the plane rolled down one row, the first row (which the roll filled from the last) zeroed. -/
def northV (x : FVec F S64x2048 .f32) : FVec F S64x2048 .f32 :=
  select k0_pay3 zeroV (dynamicRotate 0 1#32 none x rotates_S64x2048_d0)
/-- The neighbour below: rolled by 63 rows (up one), the last row zeroed. -/
def southV (x : FVec F S64x2048 .f32) : FVec F S64x2048 .f32 :=
  select k0_pay4 zeroV (dynamicRotate 0 63#32 none x rotates_S64x2048_d0)
/-- The neighbour to the left: rolled right one column, the first column zeroed. -/
def westV (x : FVec F S64x2048 .f32) : FVec F S64x2048 .f32 :=
  select k0_pay5 zeroV (dynamicRotate 1 1#32 none x rotates_S64x2048_d1)
/-- The neighbour to the right: rolled by 2047 columns (left one), the last column zeroed. -/
def eastV (x : FVec F S64x2048 .f32) : FVec F S64x2048 .f32 :=
  select k0_pay6 zeroV (dynamicRotate 1 2047#32 none x rotates_S64x2048_d1)

/-- One erosion: a pixel survives when it and its four neighbours sum to five. -/
def erodeV (x : FVec F S64x2048 .f32) : FVec F S64x2048 .f32 :=
  indV (cmpf .oeq (addf (addf (addf (addf x (northV x)) (southV x)) (westV x)) (eastV x))
    (broadcast S64x2048 (Scalar.ofBits .f32 0x40A00000#32)))

/-- The indicator plane of class `k`. -/
def classV (v1 : IVec S64x2048 32) (k : BitVec 32) : FVec F S64x2048 .f32 :=
  indV (cmpi .eq v1 (broadcast S64x2048 k))

/-- Class `k`'s body: its indicator eroded three times. -/
def coreV (v1 : IVec S64x2048 32) (k : BitVec 32) : FVec F S64x2048 .f32 :=
  erodeV (erodeV (erodeV (classV (F := F) v1 k)))

/-- The accumulator after all twenty classes, added in order onto the zero plane. -/
def accV (v1 : IVec S64x2048 32) : FVec F S64x2048 .f32 :=
  addf (addf (addf (addf (addf (addf (addf (addf (addf (addf (addf (addf (addf (addf (addf (addf (addf (addf (addf (addf
    (zeroV (F := F)) (coreV v1 0#32)) (coreV v1 1#32)) (coreV v1 2#32)) (coreV v1 3#32)) (coreV v1 4#32)) (coreV v1 5#32))
    (coreV v1 6#32)) (coreV v1 7#32)) (coreV v1 8#32)) (coreV v1 9#32)) (coreV v1 10#32)) (coreV v1 11#32)) (coreV v1 12#32))
    (coreV v1 13#32)) (coreV v1 14#32)) (coreV v1 15#32)) (coreV v1 16#32)) (coreV v1 17#32)) (coreV v1 18#32)) (coreV v1 19#32)

/-- The stored plane: one where the count of class bodies covering the pixel is not one. -/
def outV (v1 : IVec S64x2048 32) : FVec F S64x2048 .f32 :=
  indV (cmpf .one (accV (F := F) v1) (broadcast S64x2048 (Scalar.ofBits .f32 0x3F800000#32)))

set_option maxRecDepth 65536 in
set_option maxHeartbeats 4000000 in
/-- What the body leaves in the output block, as the regrouped term of the loaded label block. -/
theorem out_eq (x0 : Vec F S1x64x2048 .i32) :
    out0_1 x0 = View.canon [⟨r0_1, k0_pay1 (outV (F := F) (k0_pay2 (View.ld x0 r0_0)))⟩] := rfl

end Cert.KernelIdeal.Body

end
-- ==== Proof.LibBitWords.lean ====
/-
  Truth values as machine words, and those words as extended reals.

  A comparison yields one bit. A kernel widens the bit to 32 bits and converts it as a signed integer; a host program
  converts the bit as an unsigned integer; either way the float is 1 for true and 0 for false. Also: the comparison
  "equal" of two naturals below 2³² carried as 32-bit words is their equality; a select on a decided bit is the `if`;
  the float comparisons "equal" and "not equal" of two extended reals are the decided propositions; and one minus the
  indicator of a condition is the indicator of its negation. Nothing here mentions a program or a shape.
-/
import Idealize.ShloMosaic.PureOps.Ideal

noncomputable section

namespace BitWords

open Idealize.ShloMosaic

/-- A truth value as one bit, widened to 32 bits and converted as a SIGNED integer, is 1 or 0. -/
theorem signed_ofBool (p : Bool) :
    FloatOps.sitofp (F := Ideal) .f32 ((BitVec.ofBool p).setWidth 32) = if p then (1 : EReal) else 0 := by
  show ((((BitVec.ofBool p).setWidth 32).toInt : ℝ) : EReal) = _
  cases p
  · have h : ((BitVec.ofBool false).setWidth 32).toInt = 0 := by decide
    rw [h]; simp
  · have h : ((BitVec.ofBool true).setWidth 32).toInt = 1 := by decide
    rw [h]; simp

/-- A truth value as one bit converted as an UNSIGNED integer is 1 or 0. -/
theorem unsigned_ofBool (p : Bool) :
    FloatOps.uitofp (F := Ideal) .f32 (BitVec.ofBool p) = if p then (1 : EReal) else 0 := by
  show (((BitVec.ofBool p).toNat : ℝ) : EReal) = _
  cases p
  · have h : (BitVec.ofBool false).toNat = 0 := by decide
    rw [h]; simp
  · have h : (BitVec.ofBool true).toNat = 1 := by decide
    rw [h]; simp

/-- Two naturals below 2³² are equal as 32-bit words exactly when they are equal. -/
theorem cmpi_eq_ofNat (a b : Nat) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  by_cases h : a = b
  · subst h; simp
  · rw [decide_eq_false h]
    refine beq_false_of_ne fun e => h ?_
    have e' := congrArg BitVec.toNat e
    rw [BitVec.toNat_ofNat, BitVec.toNat_ofNat] at e'
    omega

/-- A select on a decided bit is the `if`. -/
theorem select_ofBool {α : Type} (p : Bool) (a b : α) : Scalar.select (BitVec.ofBool p) a b = if p then a else b := by
  cases p
  · exact if_neg (by decide)
  · exact if_pos rfl

/-- The comparison "equal" of two extended reals, as a bit. -/
theorem cmp_oeq (x y : EReal) : FloatOps.cmpf (F := Ideal) (φ := .f32) .oeq x y = BitVec.ofBool (decide (x = y)) := rfl
/-- The comparison "not equal" of two extended reals, as a bit. -/
theorem cmp_one (x y : EReal) : FloatOps.cmpf (F := Ideal) (φ := .f32) .one x y = BitVec.ofBool (decide (x ≠ y)) := rfl

/-- One minus the indicator of a condition is the indicator of its negation. -/
theorem one_sub_ind (p : Prop) [Decidable p] : (1 : EReal) - (if p then 1 else 0) = if p then 0 else 1 := by
  by_cases h : p
  · rw [if_pos h, if_pos h]
    rw [← EReal.coe_one, ← EReal.coe_sub]; simp
  · rw [if_neg h, if_neg h]
    rw [← EReal.coe_one, ← EReal.coe_zero, ← EReal.coe_sub]; simp

end BitWords

end
-- ==== Proof.Stencil.lean ====
/-
  The mathematics both programs compute, on one 64 × 2048 image of integer labels.

  For a class `k`, its indicator plane is 1 where the label is `k` and 0 elsewhere. One EROSION by the plus-shaped
  (4-connected) structuring element keeps a pixel exactly when the pixel and its four neighbours — above, below, left,
  right, a neighbour outside the image counting as 0 — sum to the threshold `t` (five: all five are 1). The class's BODY
  is its indicator eroded three times; the TALLY at a pixel is the sum over the twenty classes of their bodies there; and
  the BORDER image is 0 where the tally is `o` (one: the pixel lies in exactly one class body) and 1 elsewhere.

  The thresholds `t` and `o` are kept as parameters: both programs spell them with the same float words, which are
  therefore never evaluated, except that the reference SUBTRACTS its indicator from the word for one.

  Below the definitions: the twenty-term accumulation as a sum over the classes. (How the machine words that carry a
  truth value read as extended reals is Proof/LibBitWords.lean.)
-/
import Idealize.ShloMosaic.PureOps.Ideal
import Idealize.ShloMosaic.PureOps.Ideal.Laws
import Idealize.ShloMosaic.Lib.IdealHost
import Idealize.ShloMosaic.Lib.ValueIdx
import proofs.«153171_j17489106829544_1_alg».proof.Proof.LibBitWords

noncomputable section

open scoped BigOperators

namespace Cert.Border

open Idealize.ShloMosaic

/-- One image plane of extended reals. -/
abbrev Plane := Fin 64 → Fin 2048 → EReal
/-- One image of 32-bit labels. -/
abbrev Labels := Fin 64 → Fin 2048 → BitVec 32

/-- The neighbour above, 0 on the first row. -/
def up (x : Plane) : Plane := fun r c => if h : r.val = 0 then 0 else x ⟨r.val - 1, by have := r.isLt; omega⟩ c
/-- The neighbour below, 0 on the last row. -/
def down (x : Plane) : Plane := fun r c => if h : r.val = 63 then 0 else x ⟨r.val + 1, by have := r.isLt; omega⟩ c
/-- The neighbour to the left, 0 on the first column. -/
def left (x : Plane) : Plane := fun r c => if h : c.val = 0 then 0 else x r ⟨c.val - 1, by have := c.isLt; omega⟩
/-- The neighbour to the right, 0 on the last column. -/
def right (x : Plane) : Plane := fun r c => if h : c.val = 2047 then 0 else x r ⟨c.val + 1, by have := c.isLt; omega⟩

/-- One erosion: 1 where the pixel and its four neighbours sum to `t`, else 0. -/
def erode (t : EReal) (x : Plane) : Plane := fun r c =>
  if x r c + up x r c + down x r c + left x r c + right x r c = t then 1 else 0

/-- The indicator plane of class `k`. -/
def onehot (L : Labels) (k : Nat) : Plane := fun r c => if L r c = BitVec.ofNat 32 k then 1 else 0

/-- Class `k`'s body: its indicator eroded three times. -/
def core (t : EReal) (L : Labels) (k : Nat) : Plane := erode t (erode t (erode t (onehot L k)))

/-- How many of the twenty class bodies cover the pixel. -/
def tally (t : EReal) (L : Labels) : Plane := fun r c => ∑ k : Fin 20, core t L k.val r c

/-- The border image: 0 where the tally is `o`, 1 elsewhere. -/
def border (t o : EReal) (L : Labels) : Plane := fun r c => if tally t L r c = o then 0 else 1

/-! ## The accumulation -/

/-- Twenty terms added one after the other onto zero are their sum over the twenty classes. -/
theorem acc_sum (g : Nat → EReal) :
    0 + g 0 + g 1 + g 2 + g 3 + g 4 + g 5 + g 6 + g 7 + g 8 + g 9 + g 10 + g 11 + g 12 + g 13 + g 14 + g 15 + g 16
      + g 17 + g 18 + g 19 = ∑ k : Fin 20, g k.val := by
  simp only [Fin.sum_univ_castSucc, Fin.sum_univ_zero]
  rfl

end Cert.Border

end
-- ==== Proof.KernelAt.lean ====
/-
  The kernel's regrouped body read at a pixel, over the extended reals.

  Each neighbour shift of the kernel is a roll of the plane along one axis with the wrapped-around row or column zeroed
  by a mask built from the row or column number; at pixel (r, c) it is the plane at the neighbouring pixel, or 0 on the
  image's edge. So one erosion of the kernel is the erosion of the mathematics, a class's body is the class's body, the
  accumulator is the tally over the twenty classes, and the stored plane is the border image of the loaded labels.
-/
import proofs.«153171_j17489106829544_1_alg».proof.Proof.KernelBody
import proofs.«153171_j17489106829544_1_alg».proof.Proof.Stencil
import Idealize.ShloMosaic.Lib.KernelVsHost
import Idealize.ShloMosaic.Lib.Pipeline.Value

noncomputable section

namespace Cert.KernelIdeal.Body

open Cert.KernelIdeal Cert.KernelIdeal.Gen Cert.Border BitWords Idealize.ShloMosaic Idealize.ShloMosaic.TcCoe Idealize.ShloMosaic.ValueIdx

/-- A float plane of the kernel read by its two coordinates. -/
def plane (x : FVec Ideal S64x2048 .f32) : Plane := fun r c => x (ix2 r c)
/-- A label plane of the kernel read by its two coordinates. -/
def labels (v : IVec S64x2048 32) : Labels := fun r c => v (ix2 r c)

/-- The five threshold, as both programs spell it. -/
abbrev five : EReal := Ideal.ofBits .f32 0x40A00000#32
/-- The one threshold, as both programs spell it. -/
abbrev one : EReal := Ideal.ofBits .f32 0x3F800000#32

/-! ## The four edge masks -/

theorem row0_apply (r : Fin 64) (c : Fin 2048) : k0_pay3 (ix2 r c) = BitVec.ofBool (decide (r.val = 0)) := by
  show IntOp.cmpi .eq (iota .tc S64x2048 32 [0] iota_S64x2048_d0_w32 (ix2 r c)) 0#32 = _
  rw [iota_single_apply]
  exact cmpi_eq_ofNat r.val 0 (by have := r.isLt; omega) (by omega)

theorem rowlast_apply (r : Fin 64) (c : Fin 2048) : k0_pay4 (ix2 r c) = BitVec.ofBool (decide (r.val = 63)) := by
  show IntOp.cmpi .eq (iota .tc S64x2048 32 [0] iota_S64x2048_d0_w32 (ix2 r c)) 63#32 = _
  rw [iota_single_apply]
  exact cmpi_eq_ofNat r.val 63 (by have := r.isLt; omega) (by omega)

theorem col0_apply (r : Fin 64) (c : Fin 2048) : k0_pay5 (ix2 r c) = BitVec.ofBool (decide (c.val = 0)) := by
  show IntOp.cmpi .eq (iota .tc S64x2048 32 [1] iota_S64x2048_d1_w32 (ix2 r c)) 0#32 = _
  rw [iota_single_apply]
  exact cmpi_eq_ofNat c.val 0 (by have := c.isLt; omega) (by omega)

theorem collast_apply (r : Fin 64) (c : Fin 2048) : k0_pay6 (ix2 r c) = BitVec.ofBool (decide (c.val = 2047)) := by
  show IntOp.cmpi .eq (iota .tc S64x2048 32 [1] iota_S64x2048_d1_w32 (ix2 r c)) 2047#32 = _
  rw [iota_single_apply]
  exact cmpi_eq_ofNat c.val 2047 (by have := c.isLt; omega) (by omega)

theorem zeroV_apply (i : S64x2048.Idx) : zeroV (F := Ideal) i = 0 := by
  show Ideal.ofBits .f32 0x00000000#32 = 0
  exact Ideal.ofBits_zero_f32

/-! ## The four neighbours -/

theorem northV_apply (x : FVec Ideal S64x2048 .f32) (r : Fin 64) (c : Fin 2048) :
    northV x (ix2 r c) = up (plane x) r c := by
  show Scalar.select (k0_pay3 (ix2 r c)) (zeroV (F := Ideal) (ix2 r c)) (dynamicRotate 0 1#32 none x rotates_S64x2048_d0 (ix2 r c)) = _
  rw [row0_apply, select_ofBool, zeroV_apply]
  unfold up
  by_cases h : r.val = 0
  · rw [decide_eq_true h, if_pos rfl, dif_pos h]
  · rw [decide_eq_false h, if_neg Bool.false_ne_true, dif_neg h]
    exact dynamicRotate_apply 0 1#32 x rotates_S64x2048_d0 (ix2 r c) (ix2 ⟨r.val - 1, by have := r.isLt; omega⟩ c) (fun b => match b with
      | ⟨0, _⟩ => by
          have := r.isLt
          show r.val - 1 = (r.val + 64 - 1 % 64) % 64
          omega
      | ⟨1, _⟩ => (if_neg (fun h => absurd (congrArg Fin.val h) Nat.one_ne_zero)).symm)

theorem southV_apply (x : FVec Ideal S64x2048 .f32) (r : Fin 64) (c : Fin 2048) :
    southV x (ix2 r c) = down (plane x) r c := by
  show Scalar.select (k0_pay4 (ix2 r c)) (zeroV (F := Ideal) (ix2 r c)) (dynamicRotate 0 63#32 none x rotates_S64x2048_d0 (ix2 r c)) = _
  rw [rowlast_apply, select_ofBool, zeroV_apply]
  unfold down
  by_cases h : r.val = 63
  · rw [decide_eq_true h, if_pos rfl, dif_pos h]
  · rw [decide_eq_false h, if_neg Bool.false_ne_true, dif_neg h]
    exact dynamicRotate_apply 0 63#32 x rotates_S64x2048_d0 (ix2 r c) (ix2 ⟨r.val + 1, by have := r.isLt; omega⟩ c) (fun b => match b with
      | ⟨0, _⟩ => by
          have := r.isLt
          show r.val + 1 = (r.val + 64 - 63 % 64) % 64
          omega
      | ⟨1, _⟩ => (if_neg (fun h => absurd (congrArg Fin.val h) Nat.one_ne_zero)).symm)

theorem westV_apply (x : FVec Ideal S64x2048 .f32) (r : Fin 64) (c : Fin 2048) :
    westV x (ix2 r c) = left (plane x) r c := by
  show Scalar.select (k0_pay5 (ix2 r c)) (zeroV (F := Ideal) (ix2 r c)) (dynamicRotate 1 1#32 none x rotates_S64x2048_d1 (ix2 r c)) = _
  rw [col0_apply, select_ofBool, zeroV_apply]
  unfold left
  by_cases h : c.val = 0
  · rw [decide_eq_true h, if_pos rfl, dif_pos h]
  · rw [decide_eq_false h, if_neg Bool.false_ne_true, dif_neg h]
    exact dynamicRotate_apply 1 1#32 x rotates_S64x2048_d1 (ix2 r c) (ix2 r ⟨c.val - 1, by have := c.isLt; omega⟩) (fun b => match b with
      | ⟨0, _⟩ => (if_neg (fun h => absurd (congrArg Fin.val h) Nat.zero_ne_one)).symm
      | ⟨1, _⟩ => by
          have := c.isLt
          show c.val - 1 = (c.val + 2048 - 1 % 2048) % 2048
          omega)

theorem eastV_apply (x : FVec Ideal S64x2048 .f32) (r : Fin 64) (c : Fin 2048) :
    eastV x (ix2 r c) = right (plane x) r c := by
  show Scalar.select (k0_pay6 (ix2 r c)) (zeroV (F := Ideal) (ix2 r c)) (dynamicRotate 1 2047#32 none x rotates_S64x2048_d1 (ix2 r c)) = _
  rw [collast_apply, select_ofBool, zeroV_apply]
  unfold right
  by_cases h : c.val = 2047
  · rw [decide_eq_true h, if_pos rfl, dif_pos h]
  · rw [decide_eq_false h, if_neg Bool.false_ne_true, dif_neg h]
    exact dynamicRotate_apply 1 2047#32 x rotates_S64x2048_d1 (ix2 r c) (ix2 r ⟨c.val + 1, by have := c.isLt; omega⟩) (fun b => match b with
      | ⟨0, _⟩ => (if_neg (fun h => absurd (congrArg Fin.val h) Nat.zero_ne_one)).symm
      | ⟨1, _⟩ => by
          have := c.isLt
          show c.val + 1 = (c.val + 2048 - 2047 % 2048) % 2048
          omega)

/-! ## One erosion, one class, the tally, the border -/

/-- The kernel's erosion of a plane is the erosion of the plane. -/
theorem erodeV_plane (x : FVec Ideal S64x2048 .f32) : plane (erodeV x) = erode five (plane x) := by
  funext r c
  show FloatOps.sitofp (F := Ideal) .f32 ((FloatOps.cmpf (F := Ideal) (φ := .f32) .oeq
    (x (ix2 r c) + northV x (ix2 r c) + southV x (ix2 r c) + westV x (ix2 r c) + eastV x (ix2 r c)) five).setWidth 32) = _
  rw [cmp_oeq, signed_ofBool, northV_apply, southV_apply, westV_apply, eastV_apply]
  unfold erode
  simp only [decide_eq_true_eq]
  rfl

/-- The kernel's class indicator is the class's indicator plane. -/
theorem classV_plane (v1 : IVec S64x2048 32) (k : Nat) :
    plane (classV v1 (BitVec.ofNat 32 k)) = onehot (labels v1) k := by
  funext r c
  show FloatOps.sitofp (F := Ideal) .f32 ((BitVec.ofBool (v1 (ix2 r c) == BitVec.ofNat 32 k)).setWidth 32) = _
  rw [signed_ofBool]
  unfold onehot labels
  simp only [beq_iff_eq]

/-- The kernel's class body is the class's body. -/
theorem coreV_plane (v1 : IVec S64x2048 32) (k : Nat) :
    plane (coreV v1 (BitVec.ofNat 32 k)) = core five (labels v1) k := by
  unfold coreV core
  rw [erodeV_plane, erodeV_plane, erodeV_plane, classV_plane]

theorem coreV_apply (v1 : IVec S64x2048 32) (k : Nat) (r : Fin 64) (c : Fin 2048) :
    coreV (F := Ideal) v1 (BitVec.ofNat 32 k) (ix2 r c) = core five (labels v1) k r c :=
  congrFun (congrFun (coreV_plane v1 k) r) c

/-- The accumulator at a pixel is the tally of class bodies covering it. -/
theorem accV_apply (v1 : IVec S64x2048 32) (r : Fin 64) (c : Fin 2048) :
    accV (F := Ideal) v1 (ix2 r c) = tally five (labels v1) r c := by
  unfold tally accV
  simp only [addf_apply, zeroV_apply, coreV_apply]
  exact acc_sum (fun k => core five (labels v1) k r c)

/-- The stored plane at a pixel is the border image of the loaded labels. -/
theorem outV_apply (v1 : IVec S64x2048 32) (r : Fin 64) (c : Fin 2048) :
    outV (F := Ideal) v1 (ix2 r c) = border five one (labels v1) r c := by
  show FloatOps.sitofp (F := Ideal) .f32 ((FloatOps.cmpf (F := Ideal) (φ := .f32) .one
    (accV (F := Ideal) v1 (ix2 r c)) one).setWidth 32) = _
  rw [cmp_one, signed_ofBool, accV_apply]
  unfold border
  simp only [decide_eq_true_eq, ne_eq, ite_not]

end Cert.KernelIdeal.Body

end
-- ==== Proof.KernelValue.lean ====
/-
  From the kernel's blocks to its whole result array.

  The kernel runs on a grid of eight points, one image per point: at point `n` it loads image `n`'s 64 × 2048 label
  block and writes image `n`'s block of the result. By the previous module the written block is the border image of the
  loaded labels, pixel by pixel; the blocks of the eight points tile the result array; so after the run the result array
  is, at (n, 0, r, c), the border image of image `n`'s labels at (r, c).
-/
import proofs.«153171_j17489106829544_1_alg».proof.Proof.Gen.KernelIdeal.Value
import proofs.«153171_j17489106829544_1_alg».proof.Proof.KernelAt

noncomputable section

namespace Cert.KernelIdeal.BorderValue

open Cert.KernelIdeal Cert.KernelIdeal.Gen Cert.KernelIdeal.Body Cert.Border
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The whole result array as one function of the whole label array: at (n, ·, r, c) the border image of image `n`. -/
def G (L : S8x64x2048.Idx → BitVec 32) : S8x1x64x2048.Idx → EReal := fun i =>
  border five one (fun r c => L (ix3 (⟨(i 0).val, (i 0).isLt⟩ : Fin 8) r c)) ⟨(i 2).val, (i 2).isLt⟩ ⟨(i 3).val, (i 3).isLt⟩

/-! ## One block -/

/-- The stored block drops nothing: entry (0, 0, r, c) of the block is entry (r, c) of the stored plane. -/
theorem pay1_apply (v : FVec Ideal S64x2048 .f32) (z0 z1 : Fin 1) (r : Fin 64) (c : Fin 2048) :
    k0_pay1 v (ix4 z0 z1 r c) = v (ix2 r c) := by
  show shapeCast S1x1x64x2048 v shapeCasts_S64x2048_S1x1x64x2048 (ix4 z0 z1 r c) = _
  refine shapeCast_apply v _ (ix4 z0 z1 r c) (ix2 r c) ?_
  rw [Shape.rowMajor_val_two, Shape.rowMajor_val_four]
  have h0 := z0.isLt
  have h1 := z1.isLt
  show r.val * 2048 + c.val = ((z0.val * 1 + z1.val) * 64 + r.val) * 2048 + c.val
  omega

/-- The loaded block viewed as a plane: entry (r, c) of the plane is entry (0, r, c) of the block. -/
theorem pay2_apply (x0 : Vec Ideal S1x64x2048 .i32) (r : Fin 64) (c : Fin 2048) :
    k0_pay2 x0 (ix2 r c) = x0 (ix3 (0 : Fin 1) r c) := by
  show shapeCast S64x2048 x0 shapeCasts_S1x64x2048_S64x2048 (ix2 r c) = _
  refine shapeCast_apply x0 _ (ix2 r c) (ix3 (0 : Fin 1) r c) ?_
  rw [Shape.rowMajor_val_three, Shape.rowMajor_val_two]
  show (0 * 64 + r.val) * 2048 + c.val = r.val * 2048 + c.val
  omega

/-- What the body stores, entry by entry: the border image of the loaded label block. -/
theorem block_apply (x0 : Vec Ideal S1x64x2048 .i32) (j : S1x1x64x2048.Idx) :
    k0_pay1 (outV (F := Ideal) (k0_pay2 x0)) j
      = border five one (fun r c => x0 (ix3 (0 : Fin 1) r c)) ⟨(j 2).val, (j 2).isLt⟩ ⟨(j 3).val, (j 3).isLt⟩ := by
  obtain ⟨z0, z1, r, c, rfl⟩ : ∃ (z0 z1 : Fin 1) (r : Fin 64) (c : Fin 2048), j = ix4 z0 z1 r c :=
    ⟨j 0, j 1, j 2, j 3, eq_ix4 j⟩
  rw [pay1_apply, outV_apply]
  refine congrArg (fun L => border five one L r c) ?_
  funext r c
  exact pay2_apply x0 r c

/-- The border image depends only on the labels and the pixel. -/
theorem border_congr (L1 L2 : Cert.Border.Labels) (a1 a2 : Fin 64) (b1 b2 : Fin 2048) (hL : L1 = L2) (ha : a1 = a2) (hb : b1 = b2) :
    border five one L1 a1 b1 = border five one L2 a2 b2 := by
  subst hL ha hb; rfl

/-! ## The blocks tile the array -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the eight grid points: both windows sit at block (n, 0, …) at point n. -/
theorem idx_facts : ∀ t : Fin cfg0.N, win0_0.index t (0 : Fin 3) = win0_1.index t (0 : Fin 4)
    ∧ win0_0.index t (1 : Fin 3) = 0 ∧ win0_0.index t (2 : Fin 3) = 0
    ∧ win0_1.index t (1 : Fin 4) = 0 ∧ win0_1.index t (2 : Fin 4) = 0 ∧ win0_1.index t (3 : Fin 4) = 0
    ∧ win0_1.index t (0 : Fin 4) ≤ 7 :=
  (by decide +kernel : ∀ t : Fin grid0.N, _)

/-- Every image's block is some point's. -/
theorem idx_onto : ∀ q : Fin 8, ∃ t : Fin cfg0.N, win0_1.index t = ![q.val, 0, 0, 0] :=
  (by decide +kernel : ∀ q : Fin 8, ∃ t : Fin grid0.N, win0_1.index t = ![q.val, 0, 0, 0])

/-- WHAT POINT `t` WRITES BACK is block `t` of `G` of the label array as the region finds it. -/
theorem flushed_eq (c : Dev nD) (t : Fin cfg0.N) :
    (dats m 0 c).flushed 1 t = ((cfg0.win 1).blk t).view.read (Elt Ideal) (G (V m c main_arg0)) := by
  rw [Cert.KernelIdeal.Value.flushed1, out_eq]
  rw [View.canon_unit_zero hz4]
  simp only [View.ld_unit_zero (S := S1x64x2048) hz3]
  obtain ⟨e0, e1, e2, e3, e4, e5, e6⟩ := idx_facts t
  funext j
  show k0_pay1 (outV (F := Ideal) (k0_pay2 (iblk m c 0 t))) j = G (V m c main_arg0) (((cfg0.win 1).blk t).view.emb j)
  refine (block_apply (iblk m c 0 t) j).trans ?_
  unfold G
  refine border_congr _ _ _ _ _ _ ?_ ?_ ?_
  · funext r q
    show V m c main_arg0 (((cfg0.win 0).blk t).view.emb (ix3 (0 : Fin 1) r q)) = _
    refine congrArg (V m c main_arg0) (funext fun a => Fin.ext ?_)
    match a with
    | ⟨0, _⟩ =>
      show win0_0.index t (0 : Fin 3) * 1 + 1 * 0 = win0_1.index t (0 : Fin 4) * 1 + 1 * (j 0).val
      have hj : (j 0).val < 1 := (j 0).isLt
      omega
    | ⟨1, _⟩ =>
      show win0_0.index t (1 : Fin 3) * 64 + 1 * r.val = r.val
      omega
    | ⟨2, _⟩ =>
      show win0_0.index t (2 : Fin 3) * 2048 + 1 * q.val = q.val
      omega
  · refine Fin.ext ?_
    show (j 2).val = win0_1.index t (2 : Fin 4) * 64 + 1 * (j 2).val
    omega
  · refine Fin.ext ?_
    show (j 3).val = win0_1.index t (3 : Fin 4) * 2048 + 1 * (j 3).val
    omega

/-- An index of the array is in point `t`'s block iff each coordinate is in the block's range on its axis. -/
theorem mem_blk (t : Fin cfg0.N) (i : S8x1x64x2048.Idx) :
    i ∈ ((cfg0.win 1).blk t).view.set ↔ ∀ a : Fin 4, win0_1.index t a * S1x1x64x2048.size a ≤ (i a).val
      ∧ (i a).val < win0_1.index t a * S1x1x64x2048.size a + S1x1x64x2048.size a := by
  show i ∈ ((View.whole main_v0).slice (win0_1.rect t)).set ↔ _
  rw [View.set_slice_whole, Rect.mem_set_unit]
  exact Iff.rfl

/-- Every index of the result array lies in the block of the point of its image. -/
theorem cover (i : S8x1x64x2048.Idx) :
    ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 64 := (i 2).isLt
  have hi3 : (i 3).val < 2048 := (i 3).isLt
  obtain ⟨t, ht⟩ := idx_onto ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 64 ≤ (i 2).val ∧ (i 2).val < win0_1.index t (2 : Fin 4) * 64 + 64; omega
  | ⟨3, _⟩ => show win0_1.index t (3 : Fin 4) * 2048 ≤ (i 3).val ∧ (i 3).val < win0_1.index t (3 : Fin 4) * 2048 + 2048; omega

/-- THE RESULT ARRAY after the run is `G` of the label array. -/
theorem final (c : Dev nD) : (dats m 0 c).arrAt 1 cfg0.N = G (V m c main_arg0) :=
  (dats m 0 c).arrAt_eq_of_cover 1 (G (V m c main_arg0)) (fun t _ => flushed_eq m c t) cover

/-- The kernel's run: every weakly fair execution terminates, the result array at `G` of the label array, the labels unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.BorderValue

end
-- ==== Proof.RefBody.lean ====
/-
  The reference, regrouped. The jnp reference builds the one-hot stack of the twenty class planes, erodes it three
  times — each time padding the stack with a ring of zeros and adding five shifted windows of the padded stack (centre,
  up, down, left, right), keeping the pixels whose sum is five —, sums over the class axis, and returns one minus the
  indicator of "the sum is one". Here those host operations are grouped into one erosion, the one-hot stack, the class
  sum and the result, so that the reference's composed term is short and the later modules read ONE erosion at an index.
-/
import proofs.«153171_j17489106829544_1_alg».proof.Proof.Gen.ReferenceIdeal

noncomputable section

namespace Cert.ReferenceIdeal.Body

open Cert.ReferenceIdeal Cert.ReferenceIdeal.Gen Idealize.ShloMosaic Idealize.ShloMosaic.TcCoe

variable {F : FTy → Type} [FloatOps F]

/-- The stack with a ring of zeros around every plane (one row above and below, one column left and right). -/
def padH (y : FVec F S8x20x64x2048 .f32) : FVec F S8x20x66x2050 .f32 :=
  pad S8x20x66x2050 ![0, 0, 1, 1] ![0, 0, 1, 1] ![0, 0, 0, 0] y (sitofp (F := F) .f32 (constantI S_ 32 0#32))
    pads_S8x20x64x2048_S8x20x66x2050_000_000_110_110 h_S_

/-- One erosion of the whole stack: centre + up + down + left + right of the padded stack, compared with five. -/
def erodeH (y : FVec F S8x20x64x2048 .f32) : FVec F S8x20x64x2048 .f32 :=
  uitofp .f32 (cmpf .oeq
    (addf (addf (addf (addf
      (extractStridedSlice S8x20x64x2048 ![0, 0, 1, 1] (padH y) slices_S8x20x66x2050_S8x20x64x2048_0_0_1_1)
      (extractStridedSlice S8x20x64x2048 ![0, 0, 0, 1] (padH y) slices_S8x20x66x2050_S8x20x64x2048_0_0_0_1))
      (extractStridedSlice S8x20x64x2048 ![0, 0, 2, 1] (padH y) slices_S8x20x66x2050_S8x20x64x2048_0_0_2_1))
      (extractStridedSlice S8x20x64x2048 ![0, 0, 1, 0] (padH y) slices_S8x20x66x2050_S8x20x64x2048_0_0_1_0))
      (extractStridedSlice S8x20x64x2048 ![0, 0, 1, 2] (padH y) slices_S8x20x66x2050_S8x20x64x2048_0_0_1_2))
    (broadcastInDim S8x20x64x2048 ![] bcast_S_S8x20x64x2048 (constant (F := F) S_ .f32 0x40A00000#32)))

/-- The one-hot stack: plane `k` of image `n` is the indicator of "the label is `k`". -/
def onehotH (x0 : (⟨S8x64x2048, .i32⟩ : BufTy).Contents (Elt F)) : FVec F S8x20x64x2048 .f32 :=
  uitofp .f32 (cmpi .eq
    (broadcastInDim S8x20x64x2048 ![0, 1, 2, 3] bcast_S8x1x64x2048_S8x20x64x2048_0_1_2_3
      (broadcastInDim S8x1x64x2048 ![0, 2, 3] bcast_S8x64x2048_S8x1x64x2048_0_2_3 x0))
    (broadcastInDim S8x20x64x2048 ![0, 1, 2, 3] bcast_S1x20x1x1_S8x20x64x2048_0_1_2_3 (iotaInDim S1x20x1x1 32 1)))

/-- The sum over the class axis, from zero. -/
def sumH (y : FVec F S8x20x64x2048 .f32) : FVec F S8x64x2048 .f32 :=
  Host.reduceAdd y (constant (F := F) S_ .f32 0x00000000#32) reducesTo_S8x20x64x2048_S8x64x2048_d1 h_S_

/-- The reference's result: one minus the indicator of "exactly one class body covers the pixel". -/
def outH (x0 : (⟨S8x64x2048, .i32⟩ : BufTy).Contents (Elt F)) : FVec F S8x1x64x2048 .f32 :=
  subf (broadcastInDim S8x1x64x2048 ![] bcast_S_S8x1x64x2048 (constant (F := F) S_ .f32 0x3F800000#32))
    (uitofp .f32 (cmpf .oeq
      (broadcastInDim S8x1x64x2048 ![0, 2, 3] bcast_S8x64x2048_S8x1x64x2048_0_2_3
        (sumH (erodeH (erodeH (erodeH (onehotH (F := F) x0))))))
      (broadcastInDim S8x1x64x2048 ![] bcast_S_S8x1x64x2048 (constant (F := F) S_ .f32 0x3F800000#32))))

end Cert.ReferenceIdeal.Body

end
-- ==== Proof.RefAt.lean ====
/-
  The reference's regrouped operations read at a pixel, over the extended reals.

  Padding a stack of planes with a ring of zeros and cutting the five windows shifted by one row or one column out of
  the padded stack gives, at pixel (r, c) of plane (n, k): the plane itself, and its neighbours above, below, left and
  right, a neighbour outside the image being the padding's 0. So one erosion of the reference is the erosion of the
  mathematics applied plane by plane, the one-hot stack's plane (n, k) is class `k`'s indicator of image `n`, the sum
  over the class axis is the tally, and the reference's result is the border image of image `n`'s labels.
-/
import proofs.«153171_j17489106829544_1_alg».proof.Proof.RefBody
import proofs.«153171_j17489106829544_1_alg».proof.Proof.Stencil
import Idealize.ShloMosaic.Lib.KernelVsHost
import Idealize.ShloMosaic.Lib.Pipeline.Value

noncomputable section

namespace Cert.ReferenceIdeal.Body

open Cert.ReferenceIdeal Cert.ReferenceIdeal.Gen Cert.Border BitWords Idealize.ShloMosaic Idealize.ShloMosaic.TcCoe Idealize.ShloMosaic.ValueIdx

/-- Plane (n, k) of a stack, read by its two coordinates. -/
def slab (y : FVec Ideal S8x20x64x2048 .f32) (n : Fin 8) (k : Fin 20) : Plane := fun r c => y (ix4 n k r c)
/-- Image `n`'s labels, read by their two coordinates. -/
def image (x0 : (⟨S8x64x2048, .i32⟩ : BufTy).Contents (Elt Ideal)) (n : Fin 8) : Labels := fun r c => x0 (ix3 n r c)

/-- The five threshold, as both programs spell it. -/
abbrev five : EReal := Ideal.ofBits .f32 0x40A00000#32
/-- The one threshold, as both programs spell it. -/
abbrev one : EReal := Ideal.ofBits .f32 0x3F800000#32

/-! ## The padded stack -/

/-- Inside the ring the padded stack is the stack, one row and one column earlier. -/
theorem padH_inside (y : FVec Ideal S8x20x64x2048 .f32) (n : Fin 8) (k : Fin 20) (a : Fin 66) (b : Fin 2050)
    (r : Fin 64) (c : Fin 2048) (ha : a.val = 1 + r.val) (hb : b.val = 1 + c.val) :
    padH y (ix4 n k a b) = y (ix4 n k r c) := by
  unfold padH
  exact pad_apply_of_inside ![0, 0, 1, 1] ![0, 0, 1, 1] ![0, 0, 0, 0] y _ pads_S8x20x64x2048_S8x20x66x2050_000_000_110_110 h_S_
    (ix4 n k a b) (ix4 n k r c) (fun d => match d with
      | ⟨0, _⟩ => by show n.val = 0 + n.val * (0 + 1); omega
      | ⟨1, _⟩ => by show k.val = 0 + k.val * (0 + 1); omega
      | ⟨2, _⟩ => by show a.val = 1 + r.val * (0 + 1); omega
      | ⟨3, _⟩ => by show b.val = 1 + c.val * (0 + 1); omega)

/-- The padding value is zero. -/
theorem padValue : (sitofp (F := Ideal) .f32 (constantI S_ 32 0#32)) (Shape.Idx.first h_S_) = (0 : EReal) := by
  show ((((0#32 : BitVec 32)).toInt : ℝ) : EReal) = 0
  have h : ((0#32 : BitVec 32)).toInt = 0 := by decide
  rw [h]; simp

/-- On the ring the padded stack is zero. -/
theorem padH_ring (y : FVec Ideal S8x20x64x2048 .f32) (n : Fin 8) (k : Fin 20) (a : Fin 66) (b : Fin 2050)
    (h : a.val = 0 ∨ a.val = 65 ∨ b.val = 0 ∨ b.val = 2049) :
    padH y (ix4 n k a b) = 0 := by
  unfold padH
  by_cases ha : a.val = 0 ∨ a.val = 65
  · refine (pad_apply_of_not_inside ![0, 0, 1, 1] ![0, 0, 1, 1] ![0, 0, 0, 0] y _ pads_S8x20x64x2048_S8x20x66x2050_000_000_110_110 h_S_
      (ix4 n k a b) ⟨2, by decide⟩ ?_).trans padValue
    show ¬(1 ≤ a.val ∧ (a.val - 1) % (0 + 1) = 0 ∧ (a.val - 1) / (0 + 1) < 64)
    omega
  · have hb : b.val = 0 ∨ b.val = 2049 := by omega
    refine (pad_apply_of_not_inside ![0, 0, 1, 1] ![0, 0, 1, 1] ![0, 0, 0, 0] y _ pads_S8x20x64x2048_S8x20x66x2050_000_000_110_110 h_S_
      (ix4 n k a b) ⟨3, by decide⟩ ?_).trans padValue
    show ¬(1 ≤ b.val ∧ (b.val - 1) % (0 + 1) = 0 ∧ (b.val - 1) / (0 + 1) < 2048)
    omega

/-- A window of the padded stack shifted by (o2, o3) reads the padded stack (o2, o3) further. -/
theorem window_apply (y : FVec Ideal S8x20x64x2048 .f32) (o2 o3 : Nat) (ho2 : o2 ≤ 2) (ho3 : o3 ≤ 2)
    (h : S8x20x66x2050.Slices ![0, 0, o2, o3] S8x20x64x2048) (n : Fin 8) (k : Fin 20) (r : Fin 64) (c : Fin 2048) :
    extractStridedSlice S8x20x64x2048 ![0, 0, o2, o3] (padH y) h (ix4 n k r c)
      = padH y (ix4 n k (⟨o2 + r.val, by have := r.isLt; omega⟩ : Fin 66) (⟨o3 + c.val, by have := c.isLt; omega⟩ : Fin 2050)) :=
  extractStridedSlice_apply ![0, 0, o2, o3] (padH y) h (ix4 n k r c) _ (fun d => match d with
    | ⟨0, _⟩ => by show n.val = 0 + n.val; omega
    | ⟨1, _⟩ => by show k.val = 0 + k.val; omega
    | ⟨2, _⟩ => by show o2 + r.val = o2 + r.val; rfl
    | ⟨3, _⟩ => by show o3 + c.val = o3 + c.val; rfl)

variable (y : FVec Ideal S8x20x64x2048 .f32) (n : Fin 8) (k : Fin 20) (r : Fin 64) (c : Fin 2048)

theorem centre_apply :
    extractStridedSlice S8x20x64x2048 ![0, 0, 1, 1] (padH y) slices_S8x20x66x2050_S8x20x64x2048_0_0_1_1 (ix4 n k r c) = slab y n k r c := by
  rw [window_apply y 1 1 (by omega) (by omega)]
  exact padH_inside y n k _ _ r c rfl rfl

theorem up_apply :
    extractStridedSlice S8x20x64x2048 ![0, 0, 0, 1] (padH y) slices_S8x20x66x2050_S8x20x64x2048_0_0_0_1 (ix4 n k r c) = up (slab y n k) r c := by
  rw [window_apply y 0 1 (by omega) (by omega)]
  unfold up
  by_cases h : r.val = 0
  · rw [dif_pos h]; exact padH_ring y n k _ _ (Or.inl (by show 0 + r.val = 0; omega))
  · rw [dif_neg h]
    exact padH_inside y n k _ _ ⟨r.val - 1, by have := r.isLt; omega⟩ c (by show 0 + r.val = 1 + (r.val - 1); omega) rfl

theorem down_apply :
    extractStridedSlice S8x20x64x2048 ![0, 0, 2, 1] (padH y) slices_S8x20x66x2050_S8x20x64x2048_0_0_2_1 (ix4 n k r c) = down (slab y n k) r c := by
  rw [window_apply y 2 1 (by omega) (by omega)]
  unfold down
  by_cases h : r.val = 63
  · rw [dif_pos h]; exact padH_ring y n k _ _ (Or.inr (Or.inl (by show 2 + r.val = 65; omega)))
  · rw [dif_neg h]
    exact padH_inside y n k _ _ ⟨r.val + 1, by have := r.isLt; omega⟩ c (by show 2 + r.val = 1 + (r.val + 1); omega) rfl

theorem left_apply :
    extractStridedSlice S8x20x64x2048 ![0, 0, 1, 0] (padH y) slices_S8x20x66x2050_S8x20x64x2048_0_0_1_0 (ix4 n k r c) = left (slab y n k) r c := by
  rw [window_apply y 1 0 (by omega) (by omega)]
  unfold left
  by_cases h : c.val = 0
  · rw [dif_pos h]; exact padH_ring y n k _ _ (Or.inr (Or.inr (Or.inl (by show 0 + c.val = 0; omega))))
  · rw [dif_neg h]
    exact padH_inside y n k _ _ r ⟨c.val - 1, by have := c.isLt; omega⟩ rfl (by show 0 + c.val = 1 + (c.val - 1); omega)

theorem right_apply :
    extractStridedSlice S8x20x64x2048 ![0, 0, 1, 2] (padH y) slices_S8x20x66x2050_S8x20x64x2048_0_0_1_2 (ix4 n k r c) = right (slab y n k) r c := by
  rw [window_apply y 1 2 (by omega) (by omega)]
  unfold right
  by_cases h : c.val = 2047
  · rw [dif_pos h]; exact padH_ring y n k _ _ (Or.inr (Or.inr (Or.inr (by show 2 + c.val = 2049; omega))))
  · rw [dif_neg h]
    exact padH_inside y n k _ _ r ⟨c.val + 1, by have := c.isLt; omega⟩ rfl (by show 2 + c.val = 1 + (c.val + 1); omega)

/-! ## One erosion, the one-hot stack, the class sum, the result -/

/-- The reference's erosion of a stack, plane by plane, is the erosion of the plane. -/
theorem erodeH_slab : slab (erodeH y) n k = erode five (slab y n k) := by
  funext r c
  show FloatOps.uitofp (F := Ideal) .f32 (FloatOps.cmpf (F := Ideal) (φ := .f32) .oeq
    (extractStridedSlice S8x20x64x2048 ![0, 0, 1, 1] (padH y) slices_S8x20x66x2050_S8x20x64x2048_0_0_1_1 (ix4 n k r c)
      + extractStridedSlice S8x20x64x2048 ![0, 0, 0, 1] (padH y) slices_S8x20x66x2050_S8x20x64x2048_0_0_0_1 (ix4 n k r c)
      + extractStridedSlice S8x20x64x2048 ![0, 0, 2, 1] (padH y) slices_S8x20x66x2050_S8x20x64x2048_0_0_2_1 (ix4 n k r c)
      + extractStridedSlice S8x20x64x2048 ![0, 0, 1, 0] (padH y) slices_S8x20x66x2050_S8x20x64x2048_0_0_1_0 (ix4 n k r c)
      + extractStridedSlice S8x20x64x2048 ![0, 0, 1, 2] (padH y) slices_S8x20x66x2050_S8x20x64x2048_0_0_1_2 (ix4 n k r c)) five) = _
  rw [cmp_oeq, unsigned_ofBool, centre_apply, up_apply, down_apply, left_apply, right_apply]
  unfold erode
  simp only [decide_eq_true_eq]

/-- Plane (n, k) of the one-hot stack is class `k`'s indicator of image `n`. -/
theorem onehotH_slab (x0 : (⟨S8x64x2048, .i32⟩ : BufTy).Contents (Elt Ideal)) :
    slab (onehotH (F := Ideal) x0) n k = onehot (image x0 n) k.val := by
  funext r c
  have e1 : broadcastInDim S8x20x64x2048 ![0, 1, 2, 3] bcast_S8x1x64x2048_S8x20x64x2048_0_1_2_3
      (broadcastInDim S8x1x64x2048 ![0, 2, 3] bcast_S8x64x2048_S8x1x64x2048_0_2_3 x0) (ix4 n k r c) = x0 (ix3 n r c) := by
    rw [broadcastInDim_apply _ bcast_S8x1x64x2048_S8x20x64x2048_0_1_2_3 _ (ix4 n k r c) (ix4 n (0 : Fin 1) r c) (fun d => match d with
      | ⟨0, _⟩ => by show n.val = if (8 : Nat) = 1 then 0 else n.val; rw [if_neg (by decide)]
      | ⟨1, _⟩ => by show 0 = if (1 : Nat) = 1 then 0 else k.val; rw [if_pos rfl]
      | ⟨2, _⟩ => by show r.val = if (64 : Nat) = 1 then 0 else r.val; rw [if_neg (by decide)]
      | ⟨3, _⟩ => by show c.val = if (2048 : Nat) = 1 then 0 else c.val; rw [if_neg (by decide)])]
    exact broadcastInDim_apply _ bcast_S8x64x2048_S8x1x64x2048_0_2_3 x0 (ix4 n (0 : Fin 1) r c) (ix3 n r c) (fun d => match d with
      | ⟨0, _⟩ => by show n.val = if (8 : Nat) = 1 then 0 else n.val; rw [if_neg (by decide)]
      | ⟨1, _⟩ => by show r.val = if (64 : Nat) = 1 then 0 else r.val; rw [if_neg (by decide)]
      | ⟨2, _⟩ => by show c.val = if (2048 : Nat) = 1 then 0 else c.val; rw [if_neg (by decide)])
  have e2 : broadcastInDim S8x20x64x2048 ![0, 1, 2, 3] bcast_S1x20x1x1_S8x20x64x2048_0_1_2_3 (iotaInDim S1x20x1x1 32 1) (ix4 n k r c)
      = BitVec.ofNat 32 k.val := by
    rw [broadcastInDim_apply _ bcast_S1x20x1x1_S8x20x64x2048_0_1_2_3 _ (ix4 n k r c) (ix4 (0 : Fin 1) k (0 : Fin 1) (0 : Fin 1)) (fun d => match d with
      | ⟨0, _⟩ => by show 0 = if (1 : Nat) = 1 then 0 else n.val; rw [if_pos rfl]
      | ⟨1, _⟩ => by show k.val = if (20 : Nat) = 1 then 0 else k.val; rw [if_neg (by decide)]
      | ⟨2, _⟩ => by show 0 = if (1 : Nat) = 1 then 0 else r.val; rw [if_pos rfl]
      | ⟨3, _⟩ => by show 0 = if (1 : Nat) = 1 then 0 else c.val; rw [if_pos rfl])]
    rfl
  show FloatOps.uitofp (F := Ideal) .f32 (BitVec.ofBool
    (broadcastInDim S8x20x64x2048 ![0, 1, 2, 3] bcast_S8x1x64x2048_S8x20x64x2048_0_1_2_3
        (broadcastInDim S8x1x64x2048 ![0, 2, 3] bcast_S8x64x2048_S8x1x64x2048_0_2_3 x0) (ix4 n k r c)
      == broadcastInDim S8x20x64x2048 ![0, 1, 2, 3] bcast_S1x20x1x1_S8x20x64x2048_0_1_2_3 (iotaInDim S1x20x1x1 32 1) (ix4 n k r c))) = _
  rw [e1, e2, unsigned_ofBool]
  unfold onehot image
  simp only [beq_iff_eq]

/-- Plane (n, k) of the stack after the three erosions is class `k`'s body of image `n`. -/
theorem coreH_slab (x0 : (⟨S8x64x2048, .i32⟩ : BufTy).Contents (Elt Ideal)) :
    slab (erodeH (erodeH (erodeH (onehotH (F := Ideal) x0)))) n k = core five (image x0 n) k.val := by
  unfold core
  rw [erodeH_slab, erodeH_slab, erodeH_slab, onehotH_slab]

/-- The sum over the class axis at a pixel is the sum of the twenty planes there. -/
theorem sumH_apply : sumH y (ix3 n r c) = ∑ k : Fin 20, y (ix4 n k r c) := by
  unfold sumH
  simp only [Host.reduceAdd, Ideal.hostReduceAdd_def]
  rw [Ideal.hostReduceAdd_single reducesTo_S8x20x64x2048_S8x64x2048_d1 (by decide)]
  have hz : (constant (F := Ideal) S_ .f32 0x00000000#32) (Shape.Idx.first h_S_) = (0 : EReal) := Ideal.ofBits_zero_f32
  rw [hz, zero_add]
  refine Finset.sum_congr rfl fun k _ => ?_
  exact congrArg y (funext fun a => Fin.ext (by match a with | ⟨0, _⟩ => rfl | ⟨1, _⟩ => rfl | ⟨2, _⟩ => rfl | ⟨3, _⟩ => rfl))

/-- The reference's result at pixel (r, c) of image `n` is the border image of that image's labels. -/
theorem outH_apply (x0 : (⟨S8x64x2048, .i32⟩ : BufTy).Contents (Elt Ideal)) (z : Fin 1) :
    outH (F := Ideal) x0 (ix4 n z r c) = border five one (image x0 n) r c := by
  have e : broadcastInDim S8x1x64x2048 ![0, 2, 3] bcast_S8x64x2048_S8x1x64x2048_0_2_3
      (sumH (erodeH (erodeH (erodeH (onehotH (F := Ideal) x0))))) (ix4 n z r c) = tally five (image x0 n) r c := by
    rw [broadcastInDim_apply _ bcast_S8x64x2048_S8x1x64x2048_0_2_3 _ (ix4 n z r c) (ix3 n r c) (fun d => match d with
      | ⟨0, _⟩ => by show n.val = if (8 : Nat) = 1 then 0 else n.val; rw [if_neg (by decide)]
      | ⟨1, _⟩ => by show r.val = if (64 : Nat) = 1 then 0 else r.val; rw [if_neg (by decide)]
      | ⟨2, _⟩ => by show c.val = if (2048 : Nat) = 1 then 0 else c.val; rw [if_neg (by decide)])]
    rw [sumH_apply]
    unfold tally
    refine Finset.sum_congr rfl fun k _ => ?_
    exact congrFun (congrFun (coreH_slab n k x0) r) c
  show one - FloatOps.uitofp (F := Ideal) .f32 (FloatOps.cmpf (F := Ideal) (φ := .f32) .oeq
    (broadcastInDim S8x1x64x2048 ![0, 2, 3] bcast_S8x64x2048_S8x1x64x2048_0_2_3
      (sumH (erodeH (erodeH (erodeH (onehotH (F := Ideal) x0))))) (ix4 n z r c)) one) = _
  rw [e, cmp_oeq, unsigned_ofBool]
  unfold border
  simp only [decide_eq_true_eq]
  rw [show one = (1 : EReal) from Ideal.ofBits_one_f32]
  exact one_sub_ind _

end Cert.ReferenceIdeal.Body

end
-- ==== Proof.lean ====
/-
  The certificate of the border-mask kernel against its jnp reference.

  Both programs take eight 64 × 2048 images of integer labels and return, per image, the BORDER image: for each of
  twenty classes the class's indicator plane is eroded three times by the plus-shaped (4-connected) structuring element
  (a pixel survives an erosion when it and its four neighbours, a neighbour outside the image counting as zero, sum to
  five), the eroded planes are added over the classes, and the result is 0 where that tally is one and 1 elsewhere.

  The kernel does this one image per grid point, with rolls and edge masks for the neighbours and a running accumulator
  over the classes (Proof/KernelBody.lean regroups its straight-line body, Proof/KernelAt.lean reads it at a pixel,
  Proof/KernelValue.lean carries the eight blocks to the whole array); the reference does it on the whole one-hot stack,
  with zero padding and shifted windows for the neighbours and a sum over the class axis (Proof/RefBody.lean,
  Proof/RefRun.lean, Proof/RefAt.lean). Proof/Stencil.lean states the mathematics both are compared with. No law of
  arithmetic beyond reassociating the twenty-term sum is needed, and no finiteness: the inputs are integers.

  The three frames are the generated ones (the reference's is its run with the result dropped); the idealization
  rewrote nothing, so `preserves` is trivial; `algebraic` sets the two runs side by side at one function of the labels.
-/
import proofs.«153171_j17489106829544_1_alg».proof.Defs
import proofs.«153171_j17489106829544_1_alg».proof.Proof.Gen.Kernel
import proofs.«153171_j17489106829544_1_alg».proof.Proof.Gen.Kernel.Skeleton
import proofs.«153171_j17489106829544_1_alg».proof.Proof.Gen.Kernel.Launch
import proofs.«153171_j17489106829544_1_alg».proof.Proof.Gen.Kernel.Points
import proofs.«153171_j17489106829544_1_alg».proof.Proof.Gen.Kernel.Frame
import proofs.«153171_j17489106829544_1_alg».proof.Proof.Gen.KernelIdeal
import proofs.«153171_j17489106829544_1_alg».proof.Proof.Gen.KernelIdeal.Skeleton
import proofs.«153171_j17489106829544_1_alg».proof.Proof.Gen.KernelIdeal.Launch
import proofs.«153171_j17489106829544_1_alg».proof.Proof.Gen.KernelIdeal.Points
import proofs.«153171_j17489106829544_1_alg».proof.Proof.Gen.KernelIdeal.Frame
import proofs.«153171_j17489106829544_1_alg».proof.Proof.Gen.ReferenceIdeal
import proofs.«153171_j17489106829544_1_alg».proof.Proof.Gen.KernelIdeal.Value
import proofs.«153171_j17489106829544_1_alg».proof.Proof.KernelValue
import proofs.«153171_j17489106829544_1_alg».proof.Proof.RefRun
import proofs.«153171_j17489106829544_1_alg».proof.Proof.RefAt
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves the labels as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves the labels as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference's result array is the kernel's function of the labels: at (n, 0, r, c) both are the border image of
    image `n`'s labels at (r, c). -/
theorem reference_eq (x0 : (⟨Cert.ReferenceIdeal.S8x64x2048, .i32⟩ : BufTy).Contents (Elt Ideal)) :
    Cert.ReferenceIdeal.Body.outH (F := Ideal) x0 = Cert.KernelIdeal.BorderValue.G x0 := by
  funext i
  obtain ⟨n, z, r, c, rfl⟩ : ∃ (n : Fin 8) (z : Fin 1) (r : Fin 64) (c : Fin 2048), i = ix4 n z r c :=
    ⟨i 0, i 1, i 2, i 3, eq_ix4 i⟩
  rw [Cert.ReferenceIdeal.Body.outH_apply]
  rfl

/-- From memories that agree on the labels, the idealized kernel and the idealized reference both run and end with
    the same result array: the border images of the eight label images. -/
theorem algebraic : Cert.algebraic_KernelIdeal_ReferenceIdeal := by
  intro m ρ m' ρ' _ hagree
  refine ⟨fun c => Cert.KernelIdeal.BorderValue.G (m ((c.tc : Thread Cert.KernelIdeal.nD Cert.KernelIdeal.τ).loc Cert.KernelIdeal.main_arg0)),
    Cert.KernelIdeal.BorderValue.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.Body.outH (F := Ideal)
    (m' ((c.tc : Thread Cert.ReferenceIdeal.nD Cert.ReferenceIdeal.τ).loc Cert.ReferenceIdeal.main_arg0)) = _
  rw [hagree c]
  exact reference_eq _

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
